-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S2x1600000 32) (main_arg1 : FVec F S100000x128 .f32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 82
  | .vmem => 10
  | .smem => 0
  | _ => 0

abbrev bufTy : (tb : Table) → Fin (tcTables nBuf tb) → BufTy
  | .hbm, ⟨0, _⟩ => ⟨S2x1600000, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S1700000x1, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S1700000x1, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x64, .f32⟩
  | .hbm, ⟨73, _⟩ => ⟨S1700000x64, .f32⟩
  | .hbm, ⟨74, _⟩ => ⟨S1700000x64, .f32⟩
  | .hbm, ⟨75, _⟩ => ⟨S_, .f32⟩
  | .hbm, ⟨76, _⟩ => ⟨S100000x64, .f32⟩
  | .hbm, ⟨77, _⟩ => ⟨S1700000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_7 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S1700000x1, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S1700000x1, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x64, .f32⟩
  | .hbm, ⟨73, _⟩ => ⟨S1700000x64, .f32⟩
  | .hbm, ⟨74, _⟩ => ⟨S1700000x64, .f32⟩
  | .hbm, ⟨75, _⟩ => ⟨S_, .f32⟩
  | .hbm, ⟨76, _⟩ => ⟨S100000x64, .f32⟩
  | .hbm, ⟨77, _⟩ => ⟨S1700000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_7 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Layers.lean ====
/-
  The host side of the graph network, as functions of whole arrays.

  Both programs compute, around their two matrix products, the same things on the host: the source and target node of
  each of the 1,700,000 edges (the 1,600,000 given edges followed by one self-loop per node), the weight of each edge
  (the product of the inverse square roots of its two ends' degrees, a degree counting the edges that arrive at a
  node), and, for a layer, the weighted sum over each node's arriving edges of the rows of a projected feature array
  found at the edges' sources, plus a bias row — after the first layer also the maximum with zero. They are named
  here once, so that the two programs' results can be compared without ever opening them: each program's result is
  `layer2` of the product of `layer1` of a product.
-/
import proofs.«163093_j25821343384095_1_alg».proof.Proof.Gen.KernelIdeal

noncomputable section

namespace Cert.GcnBridge

open Idealize.ShloMosaic Cert.KernelIdeal Cert.KernelIdeal.Facts₀

variable {F : FTy → Type} [FloatOps F]

/-- The edges' source nodes: row 0 of the edge list, then every node once (the self-loops). -/
def srcOf (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩,
    ⟨S100000, iotaInDim S100000 32 0⟩] concatenates_S1600000_S100000_S1700000_d0

/-- The edges' target nodes: row 1 of the edge list, then every node once. -/
def dstOf (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩,
    ⟨S100000, iotaInDim S100000 32 0⟩] concatenates_S1600000_S100000_S1700000_d0

/-- Node numbers as a column of row indices: a negative number counts from the end (100000 is added to it). -/
def rowIdx (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Each node's inverse square root of its degree, the number of edges arriving at it. -/
def invSqrtDeg (d : (⟨S1700000, .i32⟩ : BufTy).Contents (Elt F)) : (⟨S100000, .f32⟩ : BufTy).Contents (Elt F) :=
  Host.rsqrt (Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32)))

/-- Each edge's weight: the product of the two ends' inverse square roots of degree. -/
def edgeWeight (s d : (⟨S1700000, .i32⟩ : BufTy).Contents (Elt F)) : (⟨S1700000, .f32⟩ : BufTy).Contents (Elt F) :=
  mulf (Host.gather gather_S100000_S1700000x1_S1700000_n_0_n_n_0_1_1 (invSqrtDeg d) (rowIdx s))
    (Host.gather gather_S100000_S1700000x1_S1700000_n_0_n_n_0_1_1 (invSqrtDeg d) (rowIdx d))

/-- The first layer before its floor, after its projection h: per node the weighted sum over arriving edges of h's
    rows at the edges' sources, plus the bias. -/
def sum1 (w : (⟨S1700000, .f32⟩ : BufTy).Contents (Elt F)) (s d : (⟨S1700000, .i32⟩ : BufTy).Contents (Elt F))
    (b : (⟨S128, .f32⟩ : BufTy).Contents (Elt F)) (h : (⟨S100000x128, .f32⟩ : BufTy).Contents (Elt F)) :
    (⟨S100000x128, .f32⟩ : BufTy).Contents (Elt F) :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 d)
      (mulf (broadcastInDim S1700000x128 ![0, 1] bcast_S1700000x1_S1700000x128_0_1 (broadcastInDim S1700000x1 ![0] bcast_S1700000_S1700000x1_0 w))
        (Host.gather gather_S100000x128_S1700000x1_S1700000x128_1_0_n_n_0_1_1128 h (rowIdx s))))
    (broadcastInDim S100000x128 ![0, 1] bcast_S1x128_S100000x128_0_1 (broadcastInDim S1x128 ![1] bcast_S128_S1x128_1 b))

/-- The maximum with zero, entry by entry. -/
def floor0 (z : (⟨S100000x128, .f32⟩ : BufTy).Contents (Elt F)) : (⟨S100000x128, .f32⟩ : BufTy).Contents (Elt F) :=
  maximumf z (broadcastInDim S100000x128 ![] bcast_S_S100000x128 (constant S_ .f32 0x00000000#32))

/-- The first layer after its projection h: that sum plus bias, floored at zero. -/
def layer1 (w : (⟨S1700000, .f32⟩ : BufTy).Contents (Elt F)) (s d : (⟨S1700000, .i32⟩ : BufTy).Contents (Elt F))
    (b : (⟨S128, .f32⟩ : BufTy).Contents (Elt F)) (h : (⟨S100000x128, .f32⟩ : BufTy).Contents (Elt F)) :
    (⟨S100000x128, .f32⟩ : BufTy).Contents (Elt F) :=
  floor0 (sum1 w s d b h)

/-- The second layer after its projection h: the same weighted neighbourhood sum at width 64, plus the bias. -/
def layer2 (w : (⟨S1700000, .f32⟩ : BufTy).Contents (Elt F)) (s d : (⟨S1700000, .i32⟩ : BufTy).Contents (Elt F))
    (b : (⟨S64, .f32⟩ : BufTy).Contents (Elt F)) (h : (⟨S100000x64, .f32⟩ : BufTy).Contents (Elt F)) :
    (⟨S100000x64, .f32⟩ : BufTy).Contents (Elt F) :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 d)
      (mulf (broadcastInDim S1700000x64 ![0, 1] bcast_S1700000x1_S1700000x64_0_1 (broadcastInDim S1700000x1 ![0] bcast_S1700000_S1700000x1_0 w))
        (Host.gather gather_S100000x64_S1700000x1_S1700000x64_1_0_n_n_0_1_164 h (rowIdx s))))
    (broadcastInDim S100000x64 ![0, 1] bcast_S1x64_S100000x64_0_1 (broadcastInDim S1x64 ![1] bcast_S64_S1x64_1 b))

end Cert.GcnBridge

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.Network.lean ====
/-
  The whole network as one function of the six argument arrays: the second layer applied to the product, with the second
  weight, of the first layer applied to the product of the features with the first weight; both layers use the same
  edges and edge weights.
-/
import proofs.«163093_j25821343384095_1_alg».proof.Proof.Layers
import proofs.«163093_j25821343384095_1_alg».proof.Proof.LibPlainDot

noncomputable section

namespace Cert.GcnBridge

open Idealize.ShloMosaic Cert.KernelIdeal Cert.LibPlainDot

/-- Two rounds of "project, then sum over the arriving edges": out = layer2 (layer1 (x · w1) · w2). -/
def gcn (e : (⟨S2x1600000, .i32⟩ : BufTy).Contents (Elt Ideal)) (x : (⟨S100000x128, .f32⟩ : BufTy).Contents (Elt Ideal))
    (w1 : (⟨S128x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) :
    (⟨S100000x64, .f32⟩ : BufTy).Contents (Elt Ideal) :=
  layer2 (edgeWeight (srcOf e) (dstOf e)) (srcOf e) (dstOf e) b2
    (rowsTimes (M := 100000) (K := 128) (N := 64)
      (layer1 (edgeWeight (srcOf e) (dstOf e)) (srcOf e) (dstOf e) b1 (rowsTimes (M := 100000) (K := 128) (N := 128) x w1))
      w2)

/-- A layer of equal operands is the same layer (the first layer). -/
theorem layer1_of_eq {F : FTy → Type} [FloatOps F]
    {w w' : (⟨S1700000, .f32⟩ : BufTy).Contents (Elt F)} {s s' d d' : (⟨S1700000, .i32⟩ : BufTy).Contents (Elt F)}
    {b b' : (⟨S128, .f32⟩ : BufTy).Contents (Elt F)} {h h' : (⟨S100000x128, .f32⟩ : BufTy).Contents (Elt F)}
    (hw : w = w') (hs : s = s') (hd : d = d') (hb : b = b') (hh : h = h') :
    layer1 w s d b h = layer1 w' s' d' b' h' := by
  subst hw hs hd hb hh
  rfl

/-- A layer of equal operands is the same layer (the second layer). -/
theorem layer2_of_eq {F : FTy → Type} [FloatOps F]
    {w w' : (⟨S1700000, .f32⟩ : BufTy).Contents (Elt F)} {s s' d d' : (⟨S1700000, .i32⟩ : BufTy).Contents (Elt F)}
    {b b' : (⟨S64, .f32⟩ : BufTy).Contents (Elt F)} {h h' : (⟨S100000x64, .f32⟩ : BufTy).Contents (Elt F)}
    (hw : w = w') (hs : s = s') (hd : d = d') (hb : b = b') (hh : h = h') :
    layer2 w s d b h = layer2 w' s' d' b' h' := by
  subst hw hs hd hb hh
  rfl

/-- A product of equal operands is the same product. -/
theorem rowsTimes_of_eq {M K N : ℕ} {l l' : (⟨2, ![M, K]⟩ : Shape).Idx → EReal} {r r' : (⟨2, ![K, N]⟩ : Shape).Idx → EReal}
    (hl : l = l') (hr : r = r') : rowsTimes l r = rowsTimes l' r' := by
  subst hl hr
  rfl

end Cert.GcnBridge

end
-- ==== Proof.Payloads.lean ====
/-
  What each kernel body stores, on the extended reals.

  Both bodies load a block of rows of the left operand and the whole right operand, round both to bf16 — the identity on
  the extended reals —, multiply them on the matrix unit into a zero accumulator, and store the product. So the stored
  block is the plain product of the two loads: entry (p, q) is the sum over k of l (p, k) * r (k, q).
-/
import proofs.«163093_j25821343384095_1_alg».proof.Proof.Gen.KernelIdeal.Skeleton
import proofs.«163093_j25821343384095_1_alg».proof.Proof.LibPlainDot
import Idealize.ShloMosaic.Lib.Pipeline.Value

noncomputable section

namespace Cert.GcnBridge

open Idealize.ShloMosaic Cert.KernelIdeal Cert.LibPlainDot

/-- The first layer's body stores the product of its 5000 rows of the features with the whole 128 by 128 weight. -/
theorem pay0_eq (v0 : Vec Ideal S5000x128 .f32) (v2 : Vec Ideal S128x128 .f32) :
    Gen.k0_pay1 (F := Ideal) v0 v2 = rowsTimes (M := 5000) (K := 128) (N := 128) v0 v2 := by
  unfold Gen.k0_pay1
  exact matmul_zero_plain (M := 5000) (K := 128) (N := 128) none v0 v2

/-- The second layer's body stores the product of its 5000 rows of the hidden features with the whole 128 by 64
    weight; the cast of the rows to their own shape changes nothing. -/
theorem pay1_eq (v0 : Vec Ideal S5000x128 .f32) (v3 : Vec Ideal S128x64 .f32) :
    Gen.k1_pay1 (F := Ideal) v0 v3 = rowsTimes (M := 5000) (K := 128) (N := 64) v0 v3 := by
  unfold Gen.k1_pay1
  rw [shapeCast_self]
  exact matmul_zero_plain (M := 5000) (K := 128) (N := 64) none v0 v3

/-- A block of rows of a product, when the block's right operand is the whole right operand read entry by entry:
    rows o, o + 1, … of l times r are l's rows o, o + 1, … times r. -/
theorem rows_block {M R K N : ℕ} (o : ℕ) (l : (⟨2, ![M, K]⟩ : Shape).Idx → EReal) (lb : (⟨2, ![R, K]⟩ : Shape).Idx → EReal)
    (r rb : (⟨2, ![K, N]⟩ : Shape).Idx → EReal)
    (hl : ∀ (y : Fin R) (k : Fin K) (h : o + y.val < M), lb (ValueIdx.ix2 y k) = l (ValueIdx.ix2 (⟨o + y.val, h⟩ : Fin M) k))
    (hr : ∀ y, rb y = r y)
    (y : (⟨2, ![R, N]⟩ : Shape).Idx) (i : (⟨2, ![M, N]⟩ : Shape).Idx) (h0 : (i 0).val = o + (y 0).val) (h1 : (i 1).val = (y 1).val) :
    rowsTimes lb rb y = rowsTimes l r i := by
  have e : rb = r := funext hr
  subst e
  exact rowsTimes_rows o l lb rb hl y i h0 h1

/-- The origin of a two-axis rectangle, as the constant function the view lemmas ask for. -/
theorem origin2 : (![0, 0] : Fin 2 → Nat) = fun _ => 0 := funext fun a => by fin_cases a <;> rfl

end Cert.GcnBridge

end
-- ==== Proof.Region0.lean ====
/-
  The array region 0 leaves: the whole product, assembled from the blocks of rows.

  Grid point t loads rows 5000 t … 5000 t + 4999 of the left operand and the whole right operand, and writes back rows
  5000 t … 5000 t + 4999 of the result. An entry of a product depends on its own row of the left operand only, so what
  point t writes back is its block of rows of the WHOLE product; the twenty blocks tile the 100000 rows (row r lies in
  the block of point r / 5000), so the array ends holding the whole product of the arrays the region was entered with.
  Stated for any contents V of the buffers at the region's entry.
-/
import proofs.«163093_j25821343384095_1_alg».proof.Proof.Gen.KernelIdeal.Frame
import proofs.«163093_j25821343384095_1_alg».proof.Proof.Payloads

set_option maxRecDepth 16384

noncomputable section

namespace Cert.GcnBridge

open Idealize.ShloMosaic Idealize.ShloMosaic.TcCoe Idealize.SL.Sem
open Cert.KernelIdeal Cert.KernelIdeal.Gen Cert.LibPlainDot Idealize.ShloMosaic.ValueIdx
open Idealize.ShloMosaic.Pipeline (Dat)

variable (V : (c : Dev nD) → (b : Ref sig .tc) → Buf (Elt Ideal) ((c : Thread nD τ).loc b))

/-- The index maps over the grid: the left operand's and the result's block index is (t, 0), the right operand's (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is its block of rows of the whole product of the entry arrays. -/
theorem flushed0_eq (c : Dev nD) (t : Fin cfg0.N) :
    (dat0 (F := Ideal) V c).flushed 2 t = ((cfg0.win 2).blk t).view.read (Elt Ideal)
      (rowsTimes (M := 100000) (K := 128) (N := 128) (V c main_arg1) (V c main_arg2)) := by
  show (cfg0.win 2).cut (grid0.coords t) ((dat0 (F := Ideal) V c).after 2 t) = _
  rw [after0_2]
  unfold out0_2
  rw [View.canon_unit_zero origin2]
  simp only [View.ld_unit_zero (S := S5000x128) origin2, View.ld_unit_zero (S := S128x128) origin2]
  rw [pay0_eq]
  obtain ⟨e0, e1, e2, e3, e4, e5⟩ := blockIdx0 t
  funext j
  show rowsTimes (M := 5000) (K := 128) (N := 128) (iblk0 V c 0 t) (iblk0 V c 1 t) j
    = rowsTimes (M := 100000) (K := 128) (N := 128) (V c main_arg1) (V c main_arg2) (((cfg0.win 2).blk t).view.emb j)
  refine rows_block (t.val * 5000) _ _ _ _ ?_ ?_ j _ ?_ ?_
  · intro y k h
    show V c main_arg1 (((cfg0.win 0).blk t).view.emb (ix2 y k)) = V c main_arg1 (ix2 (⟨t.val * 5000 + y.val, h⟩ : Fin 100000) k)
    refine congrArg (V c main_arg1) (funext fun a => Fin.ext ?_)
    match a with
    | ⟨0, _⟩ => show win0_0.index t (0 : Fin 2) * 5000 + 1 * y.val = t.val * 5000 + y.val; omega
    | ⟨1, _⟩ => show win0_0.index t (1 : Fin 2) * 128 + 1 * k.val = k.val; omega
  · intro y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 5000 + 1 * (j 0).val = t.val * 5000 + (j 0).val; omega
  · show win0_2.index t (1 : Fin 2) * 128 + 1 * (j 1).val = (j 1).val; omega

/-- An index of the result is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- Every index of the result lies in the block some point writes back: row r in the block of point r / 5000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < grid0.N := by rw [N_0]; omega
  obtain ⟨-, -, -, -, e4, e5⟩ := blockIdx0 ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_block0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- The array the region leaves is the whole product of the arrays it was entered with. -/
theorem product0 (c : Dev nD) :
    (dat0 (F := Ideal) V c).arrAt 2 cfg0.N
      = rowsTimes (M := 100000) (K := 128) (N := 128) (V c main_arg1) (V c main_arg2) :=
  (dat0 (F := Ideal) V c).arrAt_eq_of_cover 2 _ (fun t _ => flushed0_eq V c t) (covered0)

end Cert.GcnBridge

end
-- ==== Proof.Region1.lean ====
/-
  The array region 1 leaves: the whole product, assembled from the blocks of rows.

  Grid point t loads rows 5000 t … 5000 t + 4999 of the left operand and the whole right operand, and writes back rows
  5000 t … 5000 t + 4999 of the result. An entry of a product depends on its own row of the left operand only, so what
  point t writes back is its block of rows of the WHOLE product; the twenty blocks tile the 100000 rows (row r lies in
  the block of point r / 5000), so the array ends holding the whole product of the arrays the region was entered with.
  Stated for any contents V of the buffers at the region's entry.
-/
import proofs.«163093_j25821343384095_1_alg».proof.Proof.Gen.KernelIdeal.Frame
import proofs.«163093_j25821343384095_1_alg».proof.Proof.Payloads

set_option maxRecDepth 16384

noncomputable section

namespace Cert.GcnBridge

open Idealize.ShloMosaic Idealize.ShloMosaic.TcCoe Idealize.SL.Sem
open Cert.KernelIdeal Cert.KernelIdeal.Gen Cert.LibPlainDot Idealize.ShloMosaic.ValueIdx
open Idealize.ShloMosaic.Pipeline (Dat)

variable (V : (c : Dev nD) → (b : Ref sig .tc) → Buf (Elt Ideal) ((c : Thread nD τ).loc b))

/-- The index maps over the grid: the left operand's and the result's block index is (t, 0), the right operand's (0, 0). -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is its block of rows of the whole product of the entry arrays. -/
theorem flushed1_eq (c : Dev nD) (t : Fin cfg1.N) :
    (dat1 (F := Ideal) V c).flushed 2 t = ((cfg1.win 2).blk t).view.read (Elt Ideal)
      (rowsTimes (M := 100000) (K := 128) (N := 64) (V c main_v44) (V c main_arg4)) := by
  show (cfg1.win 2).cut (grid1.coords t) ((dat1 (F := Ideal) V c).after 2 t) = _
  rw [after1_2]
  unfold out1_2
  rw [View.canon_unit_zero origin2]
  simp only [View.ld_unit_zero (S := S5000x128) origin2, View.ld_unit_zero (S := S128x64) origin2]
  rw [pay1_eq]
  obtain ⟨e0, e1, e2, e3, e4, e5⟩ := blockIdx1 t
  funext j
  show rowsTimes (M := 5000) (K := 128) (N := 64) (iblk1 V c 0 t) (iblk1 V c 1 t) j
    = rowsTimes (M := 100000) (K := 128) (N := 64) (V c main_v44) (V c main_arg4) (((cfg1.win 2).blk t).view.emb j)
  refine rows_block (t.val * 5000) _ _ _ _ ?_ ?_ j _ ?_ ?_
  · intro y k h
    show V c main_v44 (((cfg1.win 0).blk t).view.emb (ix2 y k)) = V c main_v44 (ix2 (⟨t.val * 5000 + y.val, h⟩ : Fin 100000) k)
    refine congrArg (V c main_v44) (funext fun a => Fin.ext ?_)
    match a with
    | ⟨0, _⟩ => show win1_0.index t (0 : Fin 2) * 5000 + 1 * y.val = t.val * 5000 + y.val; omega
    | ⟨1, _⟩ => show win1_0.index t (1 : Fin 2) * 128 + 1 * k.val = k.val; omega
  · intro y
    show V c main_arg4 (((cfg1.win 1).blk t).view.emb y) = V c main_arg4 y
    refine congrArg (V c main_arg4) (funext fun a => Fin.ext ?_)
    match a with
    | ⟨0, _⟩ => show win1_1.index t (0 : Fin 2) * 128 + 1 * (y 0).val = (y 0).val; omega
    | ⟨1, _⟩ => show win1_1.index t (1 : Fin 2) * 64 + 1 * (y 1).val = (y 1).val; omega
  · show win1_2.index t (0 : Fin 2) * 5000 + 1 * (j 0).val = t.val * 5000 + (j 0).val; omega
  · show win1_2.index t (1 : Fin 2) * 64 + 1 * (j 1).val = (j 1).val; omega

/-- An index of the result is in point t's block iff each coordinate is in the block's range on its axis. -/
theorem mem_block1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v45).slice (win1_2.rect t)).set ↔ _
  rw [View.set_slice_whole, Rect.mem_set_unit]
  exact Iff.rfl

/-- Every index of the result lies in the block some point writes back: row r in the block of point r / 5000. -/
theorem covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have ht : (i 0).val / 5000 < grid1.N := by rw [N_1]; omega
  obtain ⟨-, -, -, -, e4, e5⟩ := blockIdx1 ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_block1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    omega

/-- The array the region leaves is the whole product of the arrays it was entered with. -/
theorem product1 (c : Dev nD) :
    (dat1 (F := Ideal) V c).arrAt 2 cfg1.N
      = rowsTimes (M := 100000) (K := 128) (N := 64) (V c main_v44) (V c main_arg4) :=
  (dat1 (F := Ideal) V c).arrAt_eq_of_cover 2 _ (fun t _ => flushed1_eq V c t) (covered1)

end Cert.GcnBridge

end
-- ==== Proof.KernelHost0.lean ====
/-
  The kernel program's buffers when its first region is entered.

  The first stretch of host operations reads the edge list only: it leaves the edges' sources and targets (with the
  self-loops appended) and the edge weights, and writes no argument.
-/
import proofs.«163093_j25821343384095_1_alg».proof.Proof.Gen.KernelIdeal.Frame
import proofs.«163093_j25821343384095_1_alg».proof.Proof.Layers
import Idealize.ShloMosaic.Lib.StableHlo.Run
import Idealize.ShloMosaic.PureOps.Ideal

set_option maxRecDepth 16384

noncomputable section

namespace Cert.GcnBridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The sources of the edges, after the first stretch. -/
theorem entry0_src : W1 m ρ c (Proc.devRef .tc main_v3) = srcOf (m ((c : Thread nD τ).loc main_arg0)) := by
  show StableHlo.after hostOps0 (W0 m ρ c) (Proc.devRef .tc main_v3) = _
  dsimp only [hostOps0]
  after_results_simp
  rfl

/-- The targets of the edges, after the first stretch. -/
theorem entry0_dst : W1 m ρ c (Proc.devRef .tc main_v6) = dstOf (m ((c : Thread nD τ).loc main_arg0)) := by
  show StableHlo.after hostOps0 (W0 m ρ c) (Proc.devRef .tc main_v6) = _
  dsimp only [hostOps0]
  after_results_simp
  rfl

/-- The edge weights, after the first stretch. -/
theorem entry0_weight : W1 m ρ c (Proc.devRef .tc main_v26)
    = edgeWeight (srcOf (m ((c : Thread nD τ).loc main_arg0))) (dstOf (m ((c : Thread nD τ).loc main_arg0))) := by
  show StableHlo.after hostOps0 (W0 m ρ c) (Proc.devRef .tc main_v26) = _
  dsimp only [hostOps0]
  after_results_simp
  rfl

/-- The first stretch does not write argument 1. -/
theorem entry0_arg1 : W1 m ρ c (Proc.devRef .tc main_arg1) = m ((c : Thread nD τ).loc main_arg1) := by
  show StableHlo.after hostOps0 (W0 m ρ c) (Proc.devRef .tc main_arg1) = _
  dsimp only [hostOps0]
  after_results_simp

/-- The first stretch does not write argument 2. -/
theorem entry0_arg2 : W1 m ρ c (Proc.devRef .tc main_arg2) = m ((c : Thread nD τ).loc main_arg2) := by
  show StableHlo.after hostOps0 (W0 m ρ c) (Proc.devRef .tc main_arg2) = _
  dsimp only [hostOps0]
  after_results_simp

/-- The first stretch does not write argument 3. -/
theorem entry0_arg3 : W1 m ρ c (Proc.devRef .tc main_arg3) = m ((c : Thread nD τ).loc main_arg3) := by
  show StableHlo.after hostOps0 (W0 m ρ c) (Proc.devRef .tc main_arg3) = _
  dsimp only [hostOps0]
  after_results_simp

/-- The first stretch does not write argument 4. -/
theorem entry0_arg4 : W1 m ρ c (Proc.devRef .tc main_arg4) = m ((c : Thread nD τ).loc main_arg4) := by
  show StableHlo.after hostOps0 (W0 m ρ c) (Proc.devRef .tc main_arg4) = _
  dsimp only [hostOps0]
  after_results_simp

/-- The first stretch does not write argument 5. -/
theorem entry0_arg5 : W1 m ρ c (Proc.devRef .tc main_arg5) = m ((c : Thread nD τ).loc main_arg5) := by
  show StableHlo.after hostOps0 (W0 m ρ c) (Proc.devRef .tc main_arg5) = _
  dsimp only [hostOps0]
  after_results_simp

end Cert.GcnBridge

end
-- ==== Proof.HostStretches.lean ====
/-
  The kernel program's later stretches of host operations, from ANY contents of the buffers.

  From contents X of the device's buffers: the layer's host operations leave, in their last buffer, the first layer's
  sum plus bias over what X holds in the buffers they read; the inlined maximum with zero leaves the floor of what X
  holds in its operand; the last stretch leaves the second layer over what X holds in the buffers it reads.
-/
import proofs.«163093_j25821343384095_1_alg».proof.Proof.Gen.KernelIdeal.Launch
import proofs.«163093_j25821343384095_1_alg».proof.Proof.Layers
import Idealize.ShloMosaic.Lib.StableHlo.Run
import Idealize.ShloMosaic.PureOps.Ideal

set_option maxRecDepth 16384
set_option Elab.async false

noncomputable section

namespace Cert.GcnBridge

open Idealize.ShloMosaic Idealize.ShloMosaic.TcCoe Idealize.SL.Sem Idealize.ShloMosaic.StableHlo
open Cert.KernelIdeal Cert.KernelIdeal.Gen

variable (X : Valuation τ sig (Elt Ideal))

/-- The layer's host operations: the first layer's sum plus bias. -/
theorem stretch_sum1 : StableHlo.after hostOps1 X (Proc.devRef .tc main_v43)
    = sum1 (X (Proc.devRef .tc main_v26)) (X (Proc.devRef .tc main_v3)) (X (Proc.devRef .tc main_v6))
        (X (Proc.devRef .tc main_arg3)) (X (Proc.devRef .tc main_v27)) := by
  dsimp only [hostOps1]
  after_results_simp
  unfold sum1 rowIdx
  rfl

/-- The inlined maximum with zero. -/
theorem stretch_floor : StableHlo.after hostOps1_1 X (Proc.devRef .tc main_v44) = floor0 (X (Proc.devRef .tc main_v43)) := by
  dsimp only [hostOps1_1]
  after_results_simp
  unfold floor0
  rfl

/-- The last stretch: the second layer. -/
theorem stretch_layer2 : StableHlo.after hostOps2 X (Proc.devRef .tc main_v61)
    = layer2 (X (Proc.devRef .tc main_v26)) (X (Proc.devRef .tc main_v3)) (X (Proc.devRef .tc main_v6))
        (X (Proc.devRef .tc main_arg5)) (X (Proc.devRef .tc main_v45)) := by
  dsimp only [hostOps2]
  after_results_simp
  unfold layer2 rowIdx
  rfl

end Cert.GcnBridge

end
-- ==== Proof.KernelHost1.lean ====
/-
  The kernel program from its first region to its second.

  The first region leaves the product of the features with the first weight; the next two stretches of host operations
  turn it into the first layer's output, the hidden features; the second region leaves their product with the second
  weight. The edges' sources and targets and the edge weights are computed before the first region, and neither a
  region nor a later stretch writes them or an argument.
-/
import proofs.«163093_j25821343384095_1_alg».proof.Proof.Gen.KernelIdeal.Frame
import proofs.«163093_j25821343384095_1_alg».proof.Proof.Network
import proofs.«163093_j25821343384095_1_alg».proof.Proof.Region0
import proofs.«163093_j25821343384095_1_alg».proof.Proof.Region1
import proofs.«163093_j25821343384095_1_alg».proof.Proof.KernelHost0
import proofs.«163093_j25821343384095_1_alg».proof.Proof.HostStretches
import Idealize.ShloMosaic.Lib.StableHlo.Run

set_option maxRecDepth 16384
set_option Elab.async false

noncomputable section

namespace Cert.GcnBridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

open Cert.LibPlainDot

/-! ## The first region -/

/-- The first region leaves the product of the two arrays it stages, as it finds them. -/
theorem exit0_staged : W2 m ρ c (Proc.devRef .tc main_v27)
    = rowsTimes (M := 100000) (K := 128) (N := 128) (V1 m ρ c main_arg1) (V1 m ρ c main_arg2) :=
  (W2_arr m ρ c 2).trans (product0 (V1 m ρ) c)

/-- It finds the features and the first weight as launched: it leaves their product. -/
theorem exit0_product : W2 m ρ c (Proc.devRef .tc main_v27)
    = rowsTimes (M := 100000) (K := 128) (N := 128) (m ((c : Thread nD τ).loc main_arg1)) (m ((c : Thread nD τ).loc main_arg2)) :=
  (exit0_staged m ρ c).trans (rowsTimes_of_eq (entry0_arg1 m ρ c) (entry0_arg2 m ρ c))

/-- The first region writes its result array only: the sources, -/
theorem src_at2 : W2 m ρ c (Proc.devRef .tc main_v3) = srcOf (m ((c : Thread nD τ).loc main_arg0)) :=
  (W2_of_ne m ρ c main_v3 (by decide)).trans (entry0_src m ρ c)
/-- the targets, -/
theorem dst_at2 : W2 m ρ c (Proc.devRef .tc main_v6) = dstOf (m ((c : Thread nD τ).loc main_arg0)) :=
  (W2_of_ne m ρ c main_v6 (by decide)).trans (entry0_dst m ρ c)
/-- the edge weights -/
theorem weight_at2 : W2 m ρ c (Proc.devRef .tc main_v26) = edgeWeight (srcOf (m ((c : Thread nD τ).loc main_arg0))) (dstOf (m ((c : Thread nD τ).loc main_arg0))) :=
  (W2_of_ne m ρ c main_v26 (by decide)).trans (entry0_weight m ρ c)
/-- and the arguments it does not stage are as before it. -/
theorem arg3_at2 : W2 m ρ c (Proc.devRef .tc main_arg3) = (m ((c : Thread nD τ).loc main_arg3)) :=
  (W2_of_ne m ρ c main_arg3 (by decide)).trans (entry0_arg3 m ρ c)
theorem arg4_at2 : W2 m ρ c (Proc.devRef .tc main_arg4) = (m ((c : Thread nD τ).loc main_arg4)) :=
  (W2_of_ne m ρ c main_arg4 (by decide)).trans (entry0_arg4 m ρ c)
theorem arg5_at2 : W2 m ρ c (Proc.devRef .tc main_arg5) = (m ((c : Thread nD τ).loc main_arg5)) :=
  (W2_of_ne m ρ c main_arg5 (by decide)).trans (entry0_arg5 m ρ c)

/-! ## The stretches between the regions -/

/-- The hidden features when the second region is entered: the first layer of what the first region left, over the
    buffers as the first region left them. -/
theorem entry1_layer : W4 m ρ c (Proc.devRef .tc main_v44)
    = layer1 (W2 m ρ c (Proc.devRef .tc main_v26)) (W2 m ρ c (Proc.devRef .tc main_v3)) (W2 m ρ c (Proc.devRef .tc main_v6))
        (W2 m ρ c (Proc.devRef .tc main_arg3)) (W2 m ρ c (Proc.devRef .tc main_v27)) := by
  show StableHlo.after hostOps1_1 (W3 m ρ c) (Proc.devRef .tc main_v44) = _
  refine (stretch_floor (W3 m ρ c)).trans ?_
  show floor0 (StableHlo.after hostOps1 (W2 m ρ c) (Proc.devRef .tc main_v43)) = _
  exact congrArg floor0 (stretch_sum1 (W2 m ρ c))

/-- The hidden features as a function of the arguments. -/
theorem entry1_hidden : W4 m ρ c (Proc.devRef .tc main_v44)
    = layer1 (edgeWeight (srcOf (m ((c : Thread nD τ).loc main_arg0))) (dstOf (m ((c : Thread nD τ).loc main_arg0)))) (srcOf (m ((c : Thread nD τ).loc main_arg0))) (dstOf (m ((c : Thread nD τ).loc main_arg0))) (m ((c : Thread nD τ).loc main_arg3))
        (rowsTimes (M := 100000) (K := 128) (N := 128) (m ((c : Thread nD τ).loc main_arg1)) (m ((c : Thread nD τ).loc main_arg2))) :=
  (entry1_layer m ρ c).trans
    (layer1_of_eq (weight_at2 m ρ c) (src_at2 m ρ c) (dst_at2 m ρ c) (arg3_at2 m ρ c) (exit0_product m ρ c))

/-- The layer's host operations and the maximum with zero do not write the sources. -/
theorem keep1_src : W4 m ρ c (Proc.devRef .tc main_v3) = W2 m ρ c (Proc.devRef .tc main_v3) := by
  show StableHlo.after hostOps1_1 (StableHlo.after hostOps1 (W2 m ρ c)) (Proc.devRef .tc main_v3) = _
  dsimp only [hostOps1_1, hostOps1]
  after_results_simp

/-- The layer's host operations and the maximum with zero do not write the targets. -/
theorem keep1_dst : W4 m ρ c (Proc.devRef .tc main_v6) = W2 m ρ c (Proc.devRef .tc main_v6) := by
  show StableHlo.after hostOps1_1 (StableHlo.after hostOps1 (W2 m ρ c)) (Proc.devRef .tc main_v6) = _
  dsimp only [hostOps1_1, hostOps1]
  after_results_simp

/-- The layer's host operations and the maximum with zero do not write the edge weights. -/
theorem keep1_weight : W4 m ρ c (Proc.devRef .tc main_v26) = W2 m ρ c (Proc.devRef .tc main_v26) := by
  show StableHlo.after hostOps1_1 (StableHlo.after hostOps1 (W2 m ρ c)) (Proc.devRef .tc main_v26) = _
  dsimp only [hostOps1_1, hostOps1]
  after_results_simp

/-- The layer's host operations and the maximum with zero do not write the second weight. -/
theorem keep1_arg4 : W4 m ρ c (Proc.devRef .tc main_arg4) = W2 m ρ c (Proc.devRef .tc main_arg4) := by
  show StableHlo.after hostOps1_1 (StableHlo.after hostOps1 (W2 m ρ c)) (Proc.devRef .tc main_arg4) = _
  dsimp only [hostOps1_1, hostOps1]
  after_results_simp

/-- The layer's host operations and the maximum with zero do not write the second bias. -/
theorem keep1_arg5 : W4 m ρ c (Proc.devRef .tc main_arg5) = W2 m ρ c (Proc.devRef .tc main_arg5) := by
  show StableHlo.after hostOps1_1 (StableHlo.after hostOps1 (W2 m ρ c)) (Proc.devRef .tc main_arg5) = _
  dsimp only [hostOps1_1, hostOps1]
  after_results_simp

/-- The second weight is as launched when the second region is entered. -/
theorem arg4_at4 : W4 m ρ c (Proc.devRef .tc main_arg4) = (m ((c : Thread nD τ).loc main_arg4)) :=
  (keep1_arg4 m ρ c).trans (arg4_at2 m ρ c)

/-! ## The second region -/

/-- The second region leaves the product of the two arrays it stages, as it finds them. -/
theorem exit1_staged : W5 m ρ c (Proc.devRef .tc main_v45)
    = rowsTimes (M := 100000) (K := 128) (N := 64) (V4 m ρ c main_v44) (V4 m ρ c main_arg4) :=
  (W5_arr m ρ c 2).trans (product1 (V4 m ρ) c)

/-- It finds the hidden features and the second weight: it leaves their product. -/
theorem exit1_product : W5 m ρ c (Proc.devRef .tc main_v45)
    = rowsTimes (M := 100000) (K := 128) (N := 64)
        (layer1 (edgeWeight (srcOf (m ((c : Thread nD τ).loc main_arg0))) (dstOf (m ((c : Thread nD τ).loc main_arg0)))) (srcOf (m ((c : Thread nD τ).loc main_arg0))) (dstOf (m ((c : Thread nD τ).loc main_arg0))) (m ((c : Thread nD τ).loc main_arg3))
          (rowsTimes (M := 100000) (K := 128) (N := 128) (m ((c : Thread nD τ).loc main_arg1)) (m ((c : Thread nD τ).loc main_arg2))))
        (m ((c : Thread nD τ).loc main_arg4)) :=
  (exit1_staged m ρ c).trans (rowsTimes_of_eq (entry1_hidden m ρ c) (arg4_at4 m ρ c))

/-- When the last stretch starts, the sources, targets, edge weights and the second bias are as first computed or launched. -/
theorem src_at5 : W5 m ρ c (Proc.devRef .tc main_v3) = srcOf (m ((c : Thread nD τ).loc main_arg0)) :=
  (W5_of_ne m ρ c main_v3 (by decide)).trans ((keep1_src m ρ c).trans (src_at2 m ρ c))
theorem dst_at5 : W5 m ρ c (Proc.devRef .tc main_v6) = dstOf (m ((c : Thread nD τ).loc main_arg0)) :=
  (W5_of_ne m ρ c main_v6 (by decide)).trans ((keep1_dst m ρ c).trans (dst_at2 m ρ c))
theorem weight_at5 : W5 m ρ c (Proc.devRef .tc main_v26) = edgeWeight (srcOf (m ((c : Thread nD τ).loc main_arg0))) (dstOf (m ((c : Thread nD τ).loc main_arg0))) :=
  (W5_of_ne m ρ c main_v26 (by decide)).trans ((keep1_weight m ρ c).trans (weight_at2 m ρ c))
theorem arg5_at5 : W5 m ρ c (Proc.devRef .tc main_arg5) = (m ((c : Thread nD τ).loc main_arg5)) :=
  (W5_of_ne m ρ c main_arg5 (by decide)).trans ((keep1_arg5 m ρ c).trans (arg5_at2 m ρ c))

end Cert.GcnBridge

end
-- ==== Proof.KernelHost2.lean ====
/-
  The kernel program's result as the network of its arguments.

  The last stretch of host operations turns what the second region left into the second layer's output, the result;
  with the buffers it reads as the earlier stretches and regions left them, that is the network of the launch contents
  of the six arguments.
-/
import proofs.«163093_j25821343384095_1_alg».proof.Proof.Gen.KernelIdeal.Frame
import proofs.«163093_j25821343384095_1_alg».proof.Proof.Network
import proofs.«163093_j25821343384095_1_alg».proof.Proof.KernelHost1
import Idealize.ShloMosaic.Lib.StableHlo.Run

set_option maxRecDepth 16384
set_option Elab.async false

noncomputable section

namespace Cert.GcnBridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

open Cert.LibPlainDot

/-- The result: the second layer of what the second region left, over the buffers as that region left them. -/
theorem exit2_layer : W6 m ρ c (Proc.devRef .tc main_v61)
    = layer2 (W5 m ρ c (Proc.devRef .tc main_v26)) (W5 m ρ c (Proc.devRef .tc main_v3)) (W5 m ρ c (Proc.devRef .tc main_v6))
        (W5 m ρ c (Proc.devRef .tc main_arg5)) (W5 m ρ c (Proc.devRef .tc main_v45)) := by
  show StableHlo.after hostOps2 (W5 m ρ c) (Proc.devRef .tc main_v61) = _
  exact stretch_layer2 (W5 m ρ c)

/-- The kernel program's result buffer ends at the network of the launch contents of its arguments. -/
theorem kernel_result : W6 m ρ c (Proc.devRef .tc main_v61)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (exit2_layer m ρ c).trans
    (layer2_of_eq (weight_at5 m ρ c) (src_at5 m ρ c) (dst_at5 m ρ c) (arg5_at5 m ρ c) (exit1_product m ρ c))

end Cert.GcnBridge

end
-- ==== Proof.RefTerm.lean ====
/-
  The reference computes the network.

  Its composed term is, read as written, the second layer of a host matrix product of the first layer of a host matrix
  product; the two programs spell the layers' host operations identically, so nothing is opened. On the extended reals a
  host matrix product over the plain dimension numbers is the plain product, entry (p, q) the sum over k of
  l (p, k) * r (k, q).
-/
import proofs.«163093_j25821343384095_1_alg».proof.Proof.Gen.ReferenceIdeal.Run
import proofs.«163093_j25821343384095_1_alg».proof.Proof.Network

set_option maxRecDepth 16384

noncomputable section

namespace Cert.GcnBridge

open Idealize.ShloMosaic Idealize.ShloMosaic.TcCoe Idealize.SL.Sem
open Cert.LibPlainDot
open Cert.ReferenceIdeal

/-- The first host product is the plain product. -/
theorem ref_dot1 (l : (⟨S100000x128, .f32⟩ : BufTy).Contents (Elt Ideal)) (r : (⟨S128x128, .f32⟩ : BufTy).Contents (Elt Ideal)) :
    Host.dotGeneral (F := Ideal) (φ₁ := .f32) (φ₂ := .f32) dot_S100000x128_S128x128_S100000x128_1_0_0_1_n_n none l r
      = rowsTimes (M := 100000) (K := 128) (N := 128) l r :=
  dotGeneral_plain (M := 100000) (K := 128) (N := 128) none .single l r

/-- The second host product is the plain product. -/
theorem ref_dot2 (l : (⟨S100000x128, .f32⟩ : BufTy).Contents (Elt Ideal)) (r : (⟨S128x64, .f32⟩ : BufTy).Contents (Elt Ideal)) :
    Host.dotGeneral (F := Ideal) (φ₁ := .f32) (φ₂ := .f32) dot_S100000x128_S128x64_S100000x64_1_0_0_1_n_n none l r
      = rowsTimes (M := 100000) (K := 128) (N := 64) l r :=
  dotGeneral_plain (M := 100000) (K := 128) (N := 64) none .single l r

variable (m : (ℓ : Loc nD τ sig) → Buf (Elt Ideal) ℓ) (c : Dev nD)

/-- The reference's composed term, layer by layer. -/
theorem ref_term :
    Cert.ReferenceIdeal.Value.res_main_v61 (F := Ideal) m c
      = layer2 (edgeWeight (srcOf (m ((c.tc : Thread nD τ).loc main_arg0))) (dstOf (m ((c.tc : Thread nD τ).loc main_arg0))))
          (srcOf (m ((c.tc : Thread nD τ).loc main_arg0))) (dstOf (m ((c.tc : Thread nD τ).loc main_arg0)))
          (m ((c.tc : Thread nD τ).loc main_arg5))
          (Host.dotGeneral (F := Ideal) (φ₁ := .f32) (φ₂ := .f32) dot_S100000x128_S128x64_S100000x64_1_0_0_1_n_n none
            (layer1 (edgeWeight (srcOf (m ((c.tc : Thread nD τ).loc main_arg0))) (dstOf (m ((c.tc : Thread nD τ).loc main_arg0))))
              (srcOf (m ((c.tc : Thread nD τ).loc main_arg0))) (dstOf (m ((c.tc : Thread nD τ).loc main_arg0)))
              (m ((c.tc : Thread nD τ).loc main_arg3))
              (Host.dotGeneral (F := Ideal) (φ₁ := .f32) (φ₂ := .f32) dot_S100000x128_S128x128_S100000x128_1_0_0_1_n_n none
                (m ((c.tc : Thread nD τ).loc main_arg1)) (m ((c.tc : Thread nD τ).loc main_arg2))))
            (m ((c.tc : Thread nD τ).loc main_arg4))) := by
  unfold Cert.ReferenceIdeal.Value.res_main_v61
  rfl

/-- The reference's result is the network of its arguments. -/
theorem ref_result :
    Cert.ReferenceIdeal.Value.res_main_v61 (F := Ideal) m c
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [ref_term, ref_dot1, ref_dot2]
  rfl

end Cert.GcnBridge

end
-- ==== Proof.lean ====
/-
  A two-layer graph convolution over 100,000 nodes and 1,600,000 edges (plus one self-loop per node), against its plain
  reference: equal results on the extended reals.

  Both programs compute out = layer2 (layer1 (x · W1) · W2): a layer sums, for each node, over the edges arriving at it,
  the rows of the projected features found at the edges' sources, each scaled by the edge's weight (the product of the
  inverse square roots of its two ends' degrees), and adds a bias row; the first layer is then floored at zero. The
  programs differ ONLY in the two projections x · W: the reference takes each as one host matrix product, the kernel
  program as a row-tiled matrix-unit kernel — twenty grid points, point t multiplying rows 5000 t … 5000 t + 4999 of
  the left operand (rounded to bf16, the identity on the extended reals) by the whole right operand into a zero
  accumulator. An entry of a product depends on its own row of the left operand only, so each point writes back its
  block of rows of the whole product and the twenty blocks tile the rows: each region leaves the whole product
  (Proof/Region0.lean, Proof/Region1.lean), which is what the host product is too (Proof/RefTerm.lean). Everything
  around the products is the same host text in both programs and is never opened (Proof/Layers.lean names it;
  Proof/KernelHost0.lean, Proof/KernelHost1.lean and Proof/KernelHost2.lean read it off the kernel program's run, Proof/RefTerm.lean off the
  reference's). No law that needs finiteness is used: the precondition is never opened.

  The three frames are the generated ones (the reference's is its generated run with the result dropped); the
  idealization rewrote nothing, so `preserves` is `True`.
-/
import proofs.«163093_j25821343384095_1_alg».proof.Defs
import proofs.«163093_j25821343384095_1_alg».proof.Proof.Gen.Kernel
import proofs.«163093_j25821343384095_1_alg».proof.Proof.Gen.Kernel.Skeleton
import proofs.«163093_j25821343384095_1_alg».proof.Proof.Gen.Kernel.Launch
import proofs.«163093_j25821343384095_1_alg».proof.Proof.Gen.Kernel.Points
import proofs.«163093_j25821343384095_1_alg».proof.Proof.Gen.Kernel.Frame
import proofs.«163093_j25821343384095_1_alg».proof.Proof.Gen.KernelIdeal
import proofs.«163093_j25821343384095_1_alg».proof.Proof.Gen.KernelIdeal.Skeleton
import proofs.«163093_j25821343384095_1_alg».proof.Proof.Gen.KernelIdeal.Launch
import proofs.«163093_j25821343384095_1_alg».proof.Proof.Gen.KernelIdeal.Points
import proofs.«163093_j25821343384095_1_alg».proof.Proof.Gen.KernelIdeal.Frame
import proofs.«163093_j25821343384095_1_alg».proof.Proof.Gen.ReferenceIdeal
import proofs.«163093_j25821343384095_1_alg».proof.Proof.Gen.Pre_finite_inputs
import proofs.«163093_j25821343384095_1_alg».proof.Proof.Gen.ReferenceIdeal.Run
import proofs.«163093_j25821343384095_1_alg».proof.Proof.KernelRun
import proofs.«163093_j25821343384095_1_alg».proof.Proof.KernelHost2
import proofs.«163093_j25821343384095_1_alg».proof.Proof.RefTerm
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of the arguments in their result
    buffer: the kernel program by its run read stretch by stretch and region by region, the reference by its composed
    term, whose two host products are the plain products the regions leave. -/
theorem algebraic : Cert.algebraic_KernelIdeal_ReferenceIdeal := by
  intro m ρ m' ρ' _ hagree
  refine ⟨fun c => Cert.GcnBridge.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.GcnBridge.kernel_result m ρ c), (h c).2⟩)
      (Cert.GcnBridge.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    show Cert.ReferenceIdeal.Value.res_main_v61 (F := Ideal) m' c = Cert.GcnBridge.gcn _ _ _ _ _ _
    rw [Cert.GcnBridge.ref_result, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
